-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : FVec F S256x256 .f32) (main_arg2 : FVec F S256 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S5000x256 : Shape := ⟨2, ![5000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩

abbrev nBuf : Space → Nat
  | .hbm => 35
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S50000x256, .bf16⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .bf16⟩
  | .hbm, ⟨15, _⟩ => ⟨S800000x256, .f32⟩
  | .hbm, ⟨16, _⟩ => ⟨S_, .f32⟩
  | .hbm, ⟨17, _⟩ => ⟨S50000x256, .f32⟩
  | .hbm, ⟨18, _⟩ => ⟨S800000x1, .i32⟩
  | .hbm, ⟨19, _⟩ => ⟨S50000x256, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x256, .f32⟩
  | .hbm, ⟨34, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256, .f32⟩
  | .local _ .vmem, ⟨4, _⟩ => ⟨S5000x256, .bf16⟩
  | .local _ .vmem, ⟨5, _⟩ => ⟨S5000x256, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  packedbf16_S5000x256_S5000x256_0_0 : (Rect.unit (s := S5000x256) ![0, 0] S5000x256.size inb_S5000x256_S5000x256_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .bf16 = 32 ∨ (Rect.block (s := S50000x256) S5000x256.size (cc0_transform_3 i) (hinb0_3 i)).WholeWords (EltTy.packing .bf16)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩

abbrev nBuf : Space → Nat
  | .hbm => 34
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S50000x256, .f32⟩
  | .hbm, ⟨6, _⟩ => ⟨S1x256, .f32⟩
  | .hbm, ⟨7, _⟩ => ⟨S50000x256, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Tile.lean ====
/-
  One tile of the projection.

  At a grid point the body loads a [5000, 256] tile of `x`, all of `W` ([256, 256]) and all of `b` ([256]),
  multiplies the tile by `W` on the matrix unit into a zero accumulator, adds `b` along the rows and stores the
  result. On the extended reals the changes of float format around the product are the identity, so the stored
  entry at row `p`, column `q` of the tile is

      Σ_{k < 256} x(p, k) · W(k, q)  +  b(q).

  The matrix product at an index is a sum over the contraction shape's one axis, re-indexed to `k < 256`;
  the bias is a [256] vector viewed as [1, 256] and repeated down the 5000 rows, so at (p, q) it reads `b(q)`.
-/
import proofs.«125418_j5995774345996_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Gen Cert.KernelIdeal.Facts₀

/-! ## The product's operand indices, coordinate by coordinate -/

theorem lhs_row (i : S5000x256.Idx) (k : dot_S5000x256_S256x256_S5000x256_1_0_0_1_n_n.contr.Idx) :
    (dot_S5000x256_S256x256_S5000x256_1_0_0_1_n_n.lhsIdx i k 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
theorem lhs_col (i : S5000x256.Idx) (k : dot_S5000x256_S256x256_S5000x256_1_0_0_1_n_n.contr.Idx) :
    (dot_S5000x256_S256x256_S5000x256_1_0_0_1_n_n.lhsIdx i k 1).val = (k ⟨0, by decide⟩).val :=
  dot_S5000x256_S256x256_S5000x256_1_0_0_1_n_n.lhsIdx_val_of_single rfl i k
theorem rhs_row (i : S5000x256.Idx) (k : dot_S5000x256_S256x256_S5000x256_1_0_0_1_n_n.contr.Idx) :
    (dot_S5000x256_S256x256_S5000x256_1_0_0_1_n_n.rhsIdx i k 0).val = (k ⟨0, by decide⟩).val :=
  dot_S5000x256_S256x256_S5000x256_1_0_0_1_n_n.rhsIdx_val_of_single rfl i k
theorem rhs_col (i : S5000x256.Idx) (k : dot_S5000x256_S256x256_S5000x256_1_0_0_1_n_n.contr.Idx) :
    (dot_S5000x256_S256x256_S5000x256_1_0_0_1_n_n.rhsIdx i k 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-! ## The product and the bias at an index -/

/-- The tile times `W` into the zero accumulator, at (p, q): the sum over `k` of row `p` against column `q`. -/
theorem product_apply (a : FVec Ideal S5000x256 .bf16) (w : FVec Ideal S256x256 .bf16) (p : Fin 5000) (q : Fin 256) :
    matmul (F := Ideal) dot_S5000x256_S256x256_S5000x256_1_0_0_1_n_n none a w (constant S5000x256 .f32 0x00000000#32) (ix2 p q)
      = ∑ k : Fin 256, a (ix2 p k) * w (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x256_S5000x256_1_0_0_1_n_n.rhsIdx (ix2 p q) ((contrEquiv1 dot_S5000x256_S256x256_S5000x256_1_0_0_1_n_n 256 rfl rfl).symm k) = ix2 k q :=
    funext fun a => Fin.ext (by
      match a with
      | ⟨0, _⟩ => exact (rhs_row _ _).trans hk
      | ⟨1, _⟩ => exact rhs_col _ _)
  rw [el, er]

/-- The bias, viewed as one row and repeated down the tile, at (p, q): `b(q)`. -/
theorem bias_apply (b : Vec Ideal S256 .f32) (p : Fin 5000) (q : Fin 256) :
    broadcastTo S5000x256 (shapeCast S1x256 b Facts₀.shapeCasts_S256_S1x256) Facts₀.broadcasts_S1x256_S5000x256 (ix2 p q) = b (ix1 q) := by
  rw [broadcastTo_apply _ Facts₀.broadcasts_S1x256_S5000x256 (ix2 p q) (ix2 (⟨0, Nat.one_pos⟩ : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])]
  exact shapeCast_apply b Facts₀.shapeCasts_S256_S1x256 (ix2 (⟨0, Nat.one_pos⟩ : Fin 1) q) (ix1 q) (by
    rw [Shape.rowMajor_val_one, Shape.rowMajor_val_two]
    show q.val = 0 * 256 + q.val
    omega)

/-! ## The stored entry -/

/-- THE TILE: what the body stores at (p, q) of its output block, from the blocks it loaded. -/
theorem stored_apply (x : Vec Ideal S5000x256 .f32) (w : Vec Ideal S256x256 .f32) (b : Vec Ideal S256 .f32)
    (p : Fin 5000) (q : Fin 256) :
    k0_pay1 (F := Ideal) x w b (ix2 p q) = (∑ k : Fin 256, x (ix2 p k) * w (ix2 k q)) + b (ix1 q) := by
  unfold k0_pay1
  show matmul (F := Ideal) dot_S5000x256_S256x256_S5000x256_1_0_0_1_n_n none x w (constant S5000x256 .f32 0x00000000#32) (ix2 p q)
      + broadcastTo S5000x256 (shapeCast S1x256 b Facts₀.shapeCasts_S256_S1x256) Facts₀.broadcasts_S1x256_S5000x256 (ix2 p q) = _
  rw [product_apply, bias_apply]

end Cert.KernelIdeal.Tile

end
-- ==== Proof.Linear.lean ====
/-
  The dense projection `x · W + b`, stated once, and the reference's computation of it.

  `linear x W b` is the [50000, 256] array whose entry at row `r`, column `c` is
  `Σ_{k < 256} x(r, k) · W(k, c) + b(c)` on the extended reals. The reference computes it as one
  `dot_general` contracting `x`'s second axis against `W`'s first, plus `b` broadcast to one row and then
  down the 50000 rows: read at (r, c), the product is that sum and the broadcast is `b(c)`.
-/
import proofs.«125418_j5995774345996_2_alg».proof.Proof.Gen.ReferenceIdeal.Read
import Idealize.ShloMosaic.Lib.ValueIdx

noncomputable section

namespace Cert.Projection

open Idealize.ShloMosaic Idealize.ShloMosaic.ValueIdx

/-- `x · W + b`, entry by entry. -/
def linear (x : (⟨2, ![50000, 256]⟩ : Shape).Idx → EReal) (w : (⟨2, ![256, 256]⟩ : Shape).Idx → EReal)
    (b : (⟨1, ![256]⟩ : Shape).Idx → EReal) : (⟨2, ![50000, 256]⟩ : Shape).Idx → EReal :=
  fun i => (∑ k : Fin 256, x (ix2 (i 0 : Fin 50000) k) * w (ix2 k (i 1 : Fin 256))) + b (ix1 (i 1 : Fin 256))

open Cert.ReferenceIdeal Cert.ReferenceIdeal.Read

/-- The reference's projected features (its product plus the broadcast bias) are `linear`. -/
theorem reference_eq (x : (⟨S50000x256, .f32⟩ : BufTy).Contents (Elt Ideal)) (w : (⟨S256x256, .f32⟩ : BufTy).Contents (Elt Ideal))
    (b : (⟨S256, .f32⟩ : BufTy).Contents (Elt Ideal)) :
    val_main_v3 (F := Ideal) x w b = linear x w b := by
  funext i
  have el : ∀ k : Fin 256, lidx_main_v0 i k = ix2 (i 0 : Fin 50000) k := fun k =>
    funext fun a => Fin.ext (by match a with | ⟨0, _⟩ => rfl | ⟨1, _⟩ => rfl)
  have er : ∀ k : Fin 256, ridx_main_v0 i k = ix2 k (i 1 : Fin 256) := fun k =>
    funext fun a => Fin.ext (by match a with | ⟨0, _⟩ => rfl | ⟨1, _⟩ => rfl)
  have eb : idx_main_v1 (idx_main_v2 i) = ix1 (i 1 : Fin 256) :=
    funext fun a => Fin.ext (by match a with | ⟨0, _⟩ => rfl)
  rw [val_main_v3_apply, val_main_v0_apply, val_main_v2_apply, val_main_v1_apply]
  simp only [el, er, eb]
  rfl

end Cert.Projection

end
-- ==== Proof.Projected.lean ====
/-
  The array the region leaves: the whole projection.

  The region runs the tile body at ten grid points. Point `t` stages rows `5000·t … 5000·t + 4999` of `x`,
  all of `W` and all of `b`, and writes its [5000, 256] result back to the same rows of the output array. So
  what point `t` writes back is rows `5000·t …` of the ONE array `linear x W b`: entry (p, q) of the tile is
  `Σ_k x(5000·t + p, k) · W(k, q) + b(q)`, which is entry (5000·t + p, q) of `linear x W b`. Every row `r` of
  the [50000, 256] output lies in the block of point `r / 5000`, so the ten blocks cover the array and it ends
  holding `linear x W b` everywhere.

  A block's coordinate inside its array is always (block index) × (block extent) + (coordinate inside the
  block); the relations between the four windows' block indices are decided once over the ten points.
-/
import proofs.«125418_j5995774345996_2_alg».proof.Proof.Gen.KernelIdeal.Frame
import proofs.«125418_j5995774345996_2_alg».proof.Proof.Tile
import proofs.«125418_j5995774345996_2_alg».proof.Proof.Linear
import Idealize.ShloMosaic.Lib.Pipeline.Value
import Idealize.ShloMosaic.Lib.ValueIdx

set_option maxRecDepth 16384

noncomputable section

namespace Cert.KernelIdeal.Projected

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The block indices at the ten points: the tile of `x` and the output tile are the same row block, in the
    first (only) column block; `W` and `b` are whole at every point. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 9 :=
  (by decide +kernel : ∀ t : Fin grid0.N, _)

/-- Every one of the ten row blocks is some point's. -/
theorem index_onto : ∀ r : Fin 10, ∃ t : Fin cfg0.N, win0_3.index t = ![r.val, 0] :=
  (by decide +kernel : ∀ r : Fin 10, ∃ t : Fin grid0.N, win0_3.index t = ![r.val, 0])

/-- WHAT POINT `t` WRITES BACK is block `t` of the projection of the arrays as the region finds them. -/
theorem flushed_eq (c : Dev nD) (t : Fin cfg0.N) :
    (dats m 0 c).flushed 3 t = ((cfg0.win 3).blk t).view.read (Elt Ideal)
      (Cert.Projection.linear (V m c main_arg0) (V m c main_arg1) (V m c main_arg2)) := by
  show (cfg0.win 3).cut (grid0.coords t) ((dats m 0 c).after 3 t) = _
  rw [after0_3]
  unfold out0_3
  rw [View.canon_unit_zero zeros2]
  simp only [View.ld_unit_zero (S := S5000x256) zeros2, View.ld_unit_zero (S := S256x256) zeros2,
    View.ld_unit_zero (S := S256) zeros1]
  obtain ⟨e0, e1, e2, e3, e4, e5, e6⟩ := index_facts t
  funext j
  obtain ⟨p, q, rfl⟩ : ∃ (p : Fin 5000) (q : Fin 256), j = ix2 p q := ⟨j 0, j 1, eq_ix2 (n0 := 5000) (n1 := 256) j⟩
  show k0_pay1 (iblk m c 0 t) (iblk m c 1 t) (iblk m c 2 t) (ix2 p q)
    = Cert.Projection.linear (V m c main_arg0) (V m c main_arg1) (V m c main_arg2) (((cfg0.win 3).blk t).view.emb (ix2 p q))
  refine (Tile.stored_apply (iblk m c 0 t) (iblk m c 1 t) (iblk m c 2 t) p q).trans ?_
  unfold Cert.Projection.linear
  have hx : ∀ k : Fin 256, iblk m c 0 t (ix2 p k)
      = V m c main_arg0 (ix2 ((((cfg0.win 3).blk t).view.emb (ix2 p q)) 0 : Fin 50000) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have hw : ∀ k : Fin 256, iblk m c 1 t (ix2 k q)
      = V m c main_arg1 (ix2 k ((((cfg0.win 3).blk t).view.emb (ix2 p q)) 1 : Fin 256)) := fun k => by
    show V m c main_arg1 (((cfg0.win 1).blk t).view.emb (ix2 k q)) = _
    refine congrArg (V m c main_arg1) (funext fun a => Fin.ext ?_)
    match a with
    | ⟨0, _⟩ => show win0_1.index t (0 : Fin 2) * 256 + 1 * k.val = k.val; omega
    | ⟨1, _⟩ => show win0_1.index t (1 : Fin 2) * 256 + 1 * q.val = win0_3.index t (1 : Fin 2) * 256 + 1 * q.val; omega
  have hb : iblk m c 2 t (ix1 q)
      = V m c main_arg2 (ix1 ((((cfg0.win 3).blk t).view.emb (ix2 p q)) 1 : Fin 256)) := by
    show V m c main_arg2 (((cfg0.win 2).blk t).view.emb (ix1 q)) = _
    refine congrArg (V m c main_arg2) (funext fun a => Fin.ext ?_)
    match a with
    | ⟨0, _⟩ => show win0_2.index t (0 : Fin 1) * 256 + 1 * q.val = win0_3.index t (1 : Fin 2) * 256 + 1 * q.val; omega
  rw [hb]
  exact congrArg (· + _) (Finset.sum_congr rfl fun k _ => by rw [hx k, hw k])

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v0).slice (win0_3.rect t)).set ↔ _
  rw [View.set_slice_whole, Rect.mem_set_unit]
  exact Iff.rfl

/-- THE COVER: row `r` is in the block of the point whose row block is `r / 5000`. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- THE ARRAY after the region: the projection of the argument arrays. -/
theorem final (c : Dev nD) :
    (dats m 0 c).arrAt 3 cfg0.N = Cert.Projection.linear (m ((c : Thread nD τ).loc main_arg0))
      (m ((c : Thread nD τ).loc main_arg1)) (m ((c : Thread nD τ).loc main_arg2)) :=
  (dats m 0 c).arrAt_eq_of_cover 3 _ (fun t _ => flushed_eq m c t) covered

end Cert.KernelIdeal.Projected

end
-- ==== Proof.KernelTail.lean ====
/-
  The kernel program's result: the host lines after the region, applied to the projection.

  After the region the program gathers the projected rows at the (wrapped) source indices, widens them (the
  identity on extended reals), adds them into their destination rows starting from zero, counts each
  destination's edges by adding ones the same way, clamps the counts from below by one, takes the reciprocals
  and multiplies each row of sums by its reciprocal. `tail wh src dst` is that composition as one function of
  the projected array `wh` and the two index arrays.

  The run of the whole program ends with the result buffer at `tail` of the array the region left — which is
  the projection `linear x W b` of the argument arrays — and of the two index arguments, which no line
  writes; the five argument arrays end as they began.
-/
import proofs.«125418_j5995774345996_2_alg».proof.Proof.Gen.KernelIdeal.Frame
import proofs.«125418_j5995774345996_2_alg».proof.Proof.Projected
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen
open Idealize.ShloMosaic.Pipeline (Dat)

/-- The host lines after the region as one function of the projected array and the two index arrays. -/
def tail (wh : (⟨S50000x256, .bf16⟩ : BufTy).Contents (Elt Ideal)) (src dst : (⟨S800000, .i32⟩ : BufTy).Contents (Elt Ideal)) :
    (⟨S50000x256, .f32⟩ : BufTy).Contents (Elt Ideal) :=
  mulf (F := Ideal)
    (Host.scatterAdd (F := Ideal) scatter_S50000x256_S800000x1_S800000x256_1_0_0_1
      (broadcastInDim S50000x256 ![] Facts₀.bcast_S_S50000x256 (constant (F := Ideal) S_ .f32 0x00000000#32))
      (broadcastInDim S800000x1 ![0] Facts₀.bcast_S800000_S800000x1_0 dst)
      (extf (F := Ideal) .f32
        (Host.gather gather_S50000x256_S800000x1_S800000x256_1_0_n_n_0_1_1256 wh
          (broadcastInDim S800000x1 ![0] Facts₀.bcast_S800000_S800000x1_0
            (select (cmpi .slt src (broadcastInDim S800000 ![] Facts₀.bcast_S_S800000 (constantI S_ 32 0#32)))
              (addi src (broadcastInDim S800000 ![] Facts₀.bcast_S_S800000 (constantI S_ 32 50000#32))) src)))
        Facts₀.bitsLt_bf16_f32))
    (broadcastInDim S50000x256 ![0, 1] Facts₀.bcast_S50000x1_S50000x256_0_1
      (broadcastInDim S50000x1 ![0] Facts₀.bcast_S50000_S50000x1_0
        (Host.divf (F := Ideal)
          (broadcastInDim S50000 ![] Facts₀.bcast_S_S50000 (constant (F := Ideal) S_ .f32 0x3F800000#32))
          (maximumf (F := Ideal)
            (Host.scatterAdd (F := Ideal) scatter_S50000_S800000x1_S800000_n_0_0_1
              (broadcastInDim S50000 ![] Facts₀.bcast_S_S50000 (constant (F := Ideal) S_ .f32 0x00000000#32))
              (broadcastInDim S800000x1 ![0] Facts₀.bcast_S800000_S800000x1_0 dst)
              (broadcastInDim S800000 ![] Facts₀.bcast_S_S800000 (constant (F := Ideal) S_ .f32 0x3F800000#32)))
            (broadcastInDim S50000 ![] Facts₀.bcast_S_S50000 (constant (F := Ideal) S_ .f32 0x3F800000#32))))))

variable (m : (ℓ : Loc nD τ sig) → Buf (Elt Ideal) ℓ) (ρ : Dev nD → PrngReg)

/-- The buffers as the region leaves them: its four arrays at what the run computed, every other buffer as it was. -/
abbrev left (c : Dev nD) : Valuation τ sig (Elt Ideal) :=
  Pipeline.withArrays (cfgs 0).spec c (V0 m c) fun w => (dats m 0 c).arrAt w (cfgs 0).N

set_option maxHeartbeats 2000000 in
/-- The result buffer after the host lines is `tail` of the three buffers those lines read. -/
theorem result_left (c : Dev nD) :
    Pipeline.afterTail₀ cfgs (dats m) 0 (V0 m) [hostOps1] c main_v22
      = tail (left m c (Proc.devRef .tc main_v0)) (left m c (Proc.devRef .tc main_arg3)) (left m c (Proc.devRef .tc main_arg4)) := by
  unfold Pipeline.afterTail₀
  show StableHlo.after hostOps1 _ (Proc.devRef .tc main_v22) = _
  after_results
  rfl

/-- The region's output array is left at what the ten points wrote: the projection. -/
theorem left_projected (c : Dev nD) :
    left m c (Proc.devRef .tc main_v0) = Cert.Projection.linear (m ((c : Thread nD τ).loc main_arg0))
      (m ((c : Thread nD τ).loc main_arg1)) (m ((c : Thread nD τ).loc main_arg2)) :=
  (Pipeline.withArrays_arr spec0 launch0.win.arr_inj c _ _ 3).trans (Projected.final m c)

/-- The two index arrays are no array of the region: they are left as launched. -/
theorem left_src (c : Dev nD) : left m c (Proc.devRef .tc main_arg3) = m ((c : Thread nD τ).loc main_arg3) :=
  (Pipeline.withArrays_of_ne _ c (V0 m c) _ main_arg3
    (by exact (by decide : ∀ w, Pipeline.arrRef spec0 w ≠ main_arg3))).trans (V_main_arg3 m c)
theorem left_dst (c : Dev nD) : left m c (Proc.devRef .tc main_arg4) = m ((c : Thread nD τ).loc main_arg4) :=
  (Pipeline.withArrays_of_ne _ c (V0 m c) _ main_arg4
    (by exact (by decide : ∀ w, Pipeline.arrRef spec0 w ≠ main_arg4))).trans (V_main_arg4 m c)

/-- THE RESULT after the whole program, as a function of the argument arrays. -/
theorem result_eq (c : Dev nD) :
    Pipeline.afterTail₀ cfgs (dats m) 0 (V0 m) [hostOps1] c main_v22
      = tail (Cert.Projection.linear (m ((c : Thread nD τ).loc main_arg0)) (m ((c : Thread nD τ).loc main_arg1))
          (m ((c : Thread nD τ).loc main_arg2))) (m ((c : Thread nD τ).loc main_arg3)) (m ((c : Thread nD τ).loc main_arg4)) := by
  rw [result_left, left_projected, left_src, left_dst]

/-- THE RUN: every weakly fair execution terminates with the result buffer at `tail` of the projection and the
    index arrays, and the five argument arrays unchanged. -/
theorem run : θ_run defs (onTc (τ := τ) (main (F := Ideal))) ⟨m, fun _ => 0, ρ⟩ fun r => ∀ c : Dev nD,
      r.2.mem ((c.tc : Thread nD τ).loc main_v22)
        = tail (Cert.Projection.linear (m ((c.tc : Thread nD τ).loc main_arg0)) (m ((c.tc : Thread nD τ).loc main_arg1))
            (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v22 (Pipeline.mem_restRefs_of main_v22 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Tail

end
-- ==== Proof.SegmentMean.lean ====
/-
  The mean of a segment, two ways.

  One program multiplies a segment's sum by the reciprocal of its clamped degree, the other divides the sum
  by the clamped degree. On the extended reals a quotient by `d ≠ 0` IS the product with `d⁻¹` (for an
  infinite `d` both are the product with `0`), and `1 / d` is `1 · d⁻¹ = d⁻¹`; so `s · (1 / d) = s / d` for
  EVERY `d ≠ 0`, finite or not. A degree clamped from below by one, `max n 1`, is at least one, hence not
  zero — whatever `n` is. No finiteness of any input is used.

  The per-row factor reaches the [50000, 256] array through two broadcasts ([50000] → [50000, 1] →
  [50000, 256]); entry (r, c) of the broadcast is entry r of the vector.
-/
import proofs.«125418_j5995774345996_2_alg».proof.ReferenceIdeal
import Idealize.ShloMosaic.PureOps.Ideal
import Idealize.ShloMosaic.Lib.Pipeline.Value

noncomputable section

namespace Cert.SegmentMean

open Idealize.ShloMosaic Cert.ReferenceIdeal

/-! ## On one extended real -/

/-- The word of the f32 literal `1.0` denotes the number one. -/
theorem one_f32 : Ideal.ofBits .f32 0x3F800000#32 = 1 := by
  simp [Ideal.ofBits, Ideal.ieee, -EReal.coe_mul]
  norm_num

/-- `s · (1 / d) = s / d` off `d = 0`: both sides are `s · d⁻¹`. -/
theorem mul_one_div (s d : EReal) (hd : d ≠ 0) : s * Ideal.div 1 d = Ideal.div s d := by
  rw [Ideal.div, if_neg hd, Ideal.div, if_neg hd, one_mul]

/-- A number clamped from below by one is not zero. -/
theorem max_one_ne_zero (x : EReal) : max x 1 ≠ 0 := by
  intro h
  have h1 : (1 : EReal) ≤ max x 1 := le_max_right x 1
  rw [h] at h1
  exact absurd h1 (not_le.mpr zero_lt_one)

/-! ## On the arrays -/

variable [Facts]
open Facts₀

/-- The row of an index of the [50000, 256] array, as an index of a [50000] vector. -/
abbrev rowOf (i : S50000x256.Idx) : S50000.Idx := fun a => match a with
  | ⟨0, _⟩ => ⟨(i 0).val, (i 0).isLt⟩
/-- The same row as an index of the [50000, 1] column. -/
abbrev colOf (i : S50000x256.Idx) : S50000x1.Idx := fun a => match a with
  | ⟨0, _⟩ => ⟨(i 0).val, (i 0).isLt⟩
  | ⟨1, _⟩ => ⟨0, Nat.one_pos⟩

/-- A per-row vector broadcast to a column and then along the 256 lanes, read at (r, c), is its entry r. -/
theorem bcast_rows_apply (Y : FVec Ideal S50000 .f32) (i : S50000x256.Idx) :
    broadcastInDim S50000x256 ![0, 1] bcast_S50000x1_S50000x256_0_1
      (broadcastInDim S50000x1 ![0] bcast_S50000_S50000x1_0 Y) i = Y (rowOf i) :=
  (broadcastInDim_apply _ bcast_S50000x1_S50000x256_0_1 _ i (colOf i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans
  (broadcastInDim_apply _ bcast_S50000_S50000x1_0 Y (colOf i) (rowOf i) (fun a => match a with
    | ⟨0, _⟩ => by show (i 0).val = if (50000 : Nat) = 1 then 0 else (i 0).val; rw [if_neg (by decide)]))

/-- The splat of the literal `1.0` over the [50000] rows. -/
abbrev ones : FVec Ideal S50000 .f32 :=
  broadcastInDim S50000 ![] bcast_S_S50000 (constant (F := Ideal) S_ .f32 0x3F800000#32)

/-- A degree vector clamped by one has no zero entry. -/
theorem clamped_ne_zero (D : FVec Ideal S50000 .f32) (r : S50000.Idx) : maximumf D ones r ≠ 0 := by
  show max (D r) (Ideal.ofBits .f32 0x3F800000#32) ≠ 0
  rw [one_f32]
  exact max_one_ne_zero _

/-- THE LAW: the sums times the broadcast reciprocals of the clamped degrees are the sums divided by the
    broadcast clamped degrees, entry by entry. -/
theorem mul_recip_eq_div (S : FVec Ideal S50000x256 .f32) (D : FVec Ideal S50000 .f32) :
    mulf S (broadcastInDim S50000x256 ![0, 1] bcast_S50000x1_S50000x256_0_1
      (broadcastInDim S50000x1 ![0] bcast_S50000_S50000x1_0 (Host.divf ones (maximumf D ones))))
    = Host.divf S (broadcastInDim S50000x256 ![0, 1] bcast_S50000x1_S50000x256_0_1
      (broadcastInDim S50000x1 ![0] bcast_S50000_S50000x1_0 (maximumf D ones))) := by
  funext i
  show S i * broadcastInDim S50000x256 ![0, 1] bcast_S50000x1_S50000x256_0_1
      (broadcastInDim S50000x1 ![0] bcast_S50000_S50000x1_0 (Host.divf ones (maximumf D ones))) i
    = Ideal.div (S i) (broadcastInDim S50000x256 ![0, 1] bcast_S50000x1_S50000x256_0_1
      (broadcastInDim S50000x1 ![0] bcast_S50000_S50000x1_0 (maximumf D ones)) i)
  rw [bcast_rows_apply, bcast_rows_apply]
  show S i * Ideal.div (Ideal.ofBits .f32 0x3F800000#32) (maximumf D ones (rowOf i)) = _
  rw [one_f32]
  exact mul_one_div _ _ (clamped_ne_zero D _)

end Cert.SegmentMean

end
-- ==== Proof.Bridge.lean ====
/-
  The two programs compute one function.

  Both programs project the node features (`x · W + b`), gather the projected rows at the source indices, add
  them into their destination rows, and count each destination's edges. They differ only in the last step: one
  multiplies each row of sums by the reciprocal of its clamped count, the other divides the row by the clamped
  count. These agree on the extended reals because the clamped count is at least one, hence not zero
  (`Cert.SegmentMean.mul_recip_eq_div`); the projection is the same array on both sides
  (`Cert.Projection.reference_eq`), and the widening of the gathered rows is the identity.
-/
import proofs.«125418_j5995774345996_2_alg».proof.Proof.KernelTail
import proofs.«125418_j5995774345996_2_alg».proof.Proof.SegmentMean
import proofs.«125418_j5995774345996_2_alg».proof.Proof.Linear
import proofs.«125418_j5995774345996_2_alg».proof.Proof.Gen.ReferenceIdeal.Read

noncomputable section

namespace Cert.Bridge

open Idealize.ShloMosaic Cert.ReferenceIdeal Cert.ReferenceIdeal.Read

/-- The kernel program's result term is the reference's, as functions of the five argument arrays. -/
theorem results_eq (x : (⟨S50000x256, .f32⟩ : BufTy).Contents (Elt Ideal)) (w : (⟨S256x256, .f32⟩ : BufTy).Contents (Elt Ideal))
    (b : (⟨S256, .f32⟩ : BufTy).Contents (Elt Ideal)) (src dst : (⟨S800000, .i32⟩ : BufTy).Contents (Elt Ideal)) :
    Cert.KernelIdeal.Tail.tail (Cert.Projection.linear x w b) src dst = val_main_v22 (F := Ideal) x w b src dst := by
  rw [← Cert.Projection.reference_eq x w b]
  exact Cert.SegmentMean.mul_recip_eq_div (val_main_v13 (F := Ideal) x w b src dst) (val_main_v17 (F := Ideal) dst)

end Cert.Bridge

end
-- ==== Proof.lean ====
/-
  A graph layer's mean aggregation, computed two ways, is one function on the extended reals.

  Both programs take node features `x` [50000, 256], a weight `W` [256, 256], a bias `b` [256] and two edge
  index arrays [800000]. Each projects the features, `Wh = x · W + b`; gathers `Wh` at the source indices;
  sums the gathered rows into their destination rows; counts the edges per destination; and forms the mean with
  the count clamped from below by one. The kernel program computes the projection tile by tile (ten tiles of
  5000 rows, each a matrix product into a zero accumulator plus the bias) and ends with
  `sums · (1 / max(count, 1))`; the reference computes one whole matrix product and ends with
  `sums / max(count, 1)`.

  * The tiles cover the output array and each is the matching rows of `x · W + b` (Proof/Tile.lean,
    Proof/Projected.lean); the reference's product plus bias is the same array (Proof/Linear.lean).
  * The lines after the projection are the same operations of the same arrays up to the last step
    (Proof/KernelTail.lean), and `s · (1 / d) = s / d` for every `d ≠ 0`, while `max(n, 1) ≥ 1`
    (Proof/SegmentMean.lean, Proof/Bridge.lean). No finiteness of the inputs is needed.

  The three frames are the generated frame runs; the reference's frame is its run with the result dropped. The
  idealization rewrote nothing, so the fourth conjunct is trivial.
-/
import proofs.«125418_j5995774345996_2_alg».proof.Defs
import proofs.«125418_j5995774345996_2_alg».proof.Proof.Gen.Kernel
import proofs.«125418_j5995774345996_2_alg».proof.Proof.Gen.Kernel.Skeleton
import proofs.«125418_j5995774345996_2_alg».proof.Proof.Gen.Kernel.Launch
import proofs.«125418_j5995774345996_2_alg».proof.Proof.Gen.Kernel.Points
import proofs.«125418_j5995774345996_2_alg».proof.Proof.Gen.Kernel.Frame
import proofs.«125418_j5995774345996_2_alg».proof.Proof.Gen.KernelIdeal
import proofs.«125418_j5995774345996_2_alg».proof.Proof.Gen.KernelIdeal.Skeleton
import proofs.«125418_j5995774345996_2_alg».proof.Proof.Gen.KernelIdeal.Launch
import proofs.«125418_j5995774345996_2_alg».proof.Proof.Gen.KernelIdeal.Points
import proofs.«125418_j5995774345996_2_alg».proof.Proof.Gen.KernelIdeal.Frame
import proofs.«125418_j5995774345996_2_alg».proof.Proof.Gen.ReferenceIdeal
import proofs.«125418_j5995774345996_2_alg».proof.Proof.Gen.Pre_finite_inputs
import proofs.«125418_j5995774345996_2_alg».proof.Proof.Gen.ReferenceIdeal.Run
import proofs.«125418_j5995774345996_2_alg».proof.Proof.Gen.ReferenceIdeal.Read
import proofs.«125418_j5995774345996_2_alg».proof.Proof.KernelTail
import proofs.«125418_j5995774345996_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the same result array: the kernel
    program's run ends at its tail of the projection, the reference's at its own composed term, and the two are
    one function of the arguments (`Cert.Bridge.results_eq`). -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2.1,
    (hagree c).2.2.2.2]
  exact (Cert.Bridge.results_eq _ _ _ _ _).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
